-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x1600000 : Shape := ⟨2, ![2, 1600000]⟩
abbrev S50000x32 : Shape := ⟨2, ![50000, 32]⟩
abbrev S32x128 : Shape := ⟨2, ![32, 128]⟩
abbrev S128 : Shape := ⟨1, ![128]⟩
abbrev S128x128 : Shape := ⟨2, ![128, 128]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S50000 32) (main_arg1 : IVec S2x1600000 32) (main_arg2 : FVec F S50000x32 .f32) (main_arg3 : FVec F S32x128 .f32) (main_arg4 : FVec F S128 .f32) (main_arg5 : FVec F S128x128 .f32) (main_arg6 : FVec F S128 .f32) : IVec S_ 1 :=
  let main_v0 : FVec F S50000x32 .f32 := Host.absf main_arg2
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000 : Shape := ⟨1, ![50000]⟩
abbrev S2x1600000 : Shape := ⟨2, ![2, 1600000]⟩
abbrev S50000x32 : Shape := ⟨2, ![50000, 32]⟩
abbrev S32x128 : Shape := ⟨2, ![32, 128]⟩
abbrev S128 : Shape := ⟨1, ![128]⟩
abbrev S128x128 : Shape := ⟨2, ![128, 128]⟩
abbrev S_ : Shape := ⟨0, ![]⟩
abbrev S50000x1 : Shape := ⟨2, ![50000, 1]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S50000x128 : Shape := ⟨2, ![50000, 128]⟩
abbrev S5000x32 : Shape := ⟨2, ![5000, 32]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 92
  | .vmem => 10
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S50000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S50000, .i32⟩
  | .hbm, ⟨9, _⟩ => ⟨S50000, .i1⟩
  | .hbm, ⟨10, _⟩ => ⟨S_, .i32⟩
  | .hbm, ⟨11, _⟩ => ⟨S50000, .i32⟩
  | .hbm, ⟨12, _⟩ => ⟨S50000, .i32⟩
  | .hbm, ⟨13, _⟩ => ⟨S50000, .i32⟩
  | .hbm, ⟨14, _⟩ => ⟨S50000x1, .i32⟩
  | .hbm, ⟨15, _⟩ => ⟨S50000x32, .f32⟩
  | .hbm, ⟨16, _⟩ => ⟨S50000, .i32⟩
  | .hbm, ⟨17, _⟩ => ⟨S1x1600000, .i32⟩
  | .hbm, ⟨18, _⟩ => ⟨S1600000, .i32⟩
  | .hbm, ⟨19, _⟩ => ⟨S1650000, .i32⟩
  | .hbm, ⟨20, _⟩ => ⟨S1x1600000, .i32⟩
  | .hbm, ⟨21, _⟩ => ⟨S1600000, .i32⟩
  | .hbm, ⟨22, _⟩ => ⟨S1650000, .i32⟩
  | .hbm, ⟨23, _⟩ => ⟨S_, .f32⟩
  | .hbm, ⟨24, _⟩ => ⟨S1650000, .f32⟩
  | .hbm, ⟨25, _⟩ => ⟨S_, .f32⟩
  | .hbm, ⟨26, _⟩ => ⟨S50000, .f32⟩
  | .hbm, ⟨27, _⟩ => ⟨S1650000x1, .i32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x128, .f32⟩
  | .hbm, ⟨82, _⟩ => ⟨S1650000x1, .f32⟩
  | .hbm, ⟨83, _⟩ => ⟨S1650000x128, .f32⟩
  | .hbm, ⟨84, _⟩ => ⟨S1650000x128, .f32⟩
  | .hbm, ⟨85, _⟩ => ⟨S_, .f32⟩
  | .hbm, ⟨86, _⟩ => ⟨S50000x128, .f32⟩
  | .hbm, ⟨87, _⟩ => ⟨S1650000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S1650000_S1650000x1_0 : S1650000.BroadcastsInDim S1650000x1 (![0] : Fin 1 → Fin S1650000x1.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S50000x32_S50000x1_S50000x32_1_0_n_n_0_1_132_wf : GatherDims.WF S50000x32 S50000x1 S50000x32 [1] [0] [] [0] [] 1 ![1, 32]
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x32_S32x128_S5000x128_1_0_0_1_n_n_wf : DotDims.WF S5000x32 S32x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def gather_S50000x32_S50000x1_S50000x32_1_0_n_n_0_1_132 : GatherDims S50000x32 S50000x1 S50000x32 where
  offsetDims := [1]
  collapsedSliceDims := [0]
  operandBatchingDims := []
  startIndicesBatchingDims := []
  startIndexMap := [0]
  indexVectorDim := 1
  sliceSizes := ![1, 32]
  wf := gather_S50000x32_S50000x1_S50000x32_1_0_n_n_0_1_132_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000 : Shape := ⟨1, ![50000]⟩
abbrev S2x1600000 : Shape := ⟨2, ![2, 1600000]⟩
abbrev S50000x32 : Shape := ⟨2, ![50000, 32]⟩
abbrev S32x128 : Shape := ⟨2, ![32, 128]⟩
abbrev S128 : Shape := ⟨1, ![128]⟩
abbrev S128x128 : Shape := ⟨2, ![128, 128]⟩
abbrev S_ : Shape := ⟨0, ![]⟩
abbrev S50000x1 : Shape := ⟨2, ![50000, 1]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x1600000, .i32⟩
  | .hbm, ⟨2, _⟩ => ⟨S50000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S50000, .i32⟩
  | .hbm, ⟨9, _⟩ => ⟨S50000, .i1⟩
  | .hbm, ⟨10, _⟩ => ⟨S_, .i32⟩
  | .hbm, ⟨11, _⟩ => ⟨S50000, .i32⟩
  | .hbm, ⟨12, _⟩ => ⟨S50000, .i32⟩
  | .hbm, ⟨13, _⟩ => ⟨S50000, .i32⟩
  | .hbm, ⟨14, _⟩ => ⟨S50000x1, .i32⟩
  | .hbm, ⟨15, _⟩ => ⟨S50000x32, .f32⟩
  | .hbm, ⟨16, _⟩ => ⟨S50000, .i32⟩
  | .hbm, ⟨17, _⟩ => ⟨S1x1600000, .i32⟩
  | .hbm, ⟨18, _⟩ => ⟨S1600000, .i32⟩
  | .hbm, ⟨19, _⟩ => ⟨S1650000, .i32⟩
  | .hbm, ⟨20, _⟩ => ⟨S1x1600000, .i32⟩
  | .hbm, ⟨21, _⟩ => ⟨S1600000, .i32⟩
  | .hbm, ⟨22, _⟩ => ⟨S1650000, .i32⟩
  | .hbm, ⟨23, _⟩ => ⟨S_, .f32⟩
  | .hbm, ⟨24, _⟩ => ⟨S1650000, .f32⟩
  | .hbm, ⟨25, _⟩ => ⟨S_, .f32⟩
  | .hbm, ⟨26, _⟩ => ⟨S50000, .f32⟩
  | .hbm, ⟨27, _⟩ => ⟨S1650000x1, .i32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x128, .f32⟩
  | .hbm, ⟨82, _⟩ => ⟨S1650000x1, .f32⟩
  | .hbm, ⟨83, _⟩ => ⟨S1650000x128, .f32⟩
  | .hbm, ⟨84, _⟩ => ⟨S1650000x128, .f32⟩
  | .hbm, ⟨85, _⟩ => ⟨S_, .f32⟩
  | .hbm, ⟨86, _⟩ => ⟨S50000x128, .f32⟩
  | .hbm, ⟨87, _⟩ => ⟨S1650000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x32_S50000x1_S50000x32_1_0_n_n_0_1_132_wf : GatherDims.WF S50000x32 S50000x1 S50000x32 [1] [0] [] [0] [] 1 ![1, 32]
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x32_S32x128_S50000x128_1_0_0_1_n_n_wf : DotDims.WF S50000x32 S32x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def gather_S50000x32_S50000x1_S50000x32_1_0_n_n_0_1_132 : GatherDims S50000x32 S50000x1 S50000x32 where
  offsetDims := [1]
  collapsedSliceDims := [0]
  operandBatchingDims := []
  startIndicesBatchingDims := []
  startIndexMap := [0]
  indexVectorDim := 1
  sliceSizes := ![1, 32]
  wf := gather_S50000x32_S50000x1_S50000x32_1_0_n_n_0_1_132_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunResult.lean ====
/-
  The kernel program's run with its result named.

  The program is six segments: host operations, the first row-blocked product, host operations, the rectifier,
  the second row-blocked product, host operations. The buffer contents at each boundary are a fold from the launch
  memory (`Gen.W1` … `Gen.W6`). Every weakly fair execution terminates, nothing faulting, with every unscoped buffer at the last
  boundary's contents: so the result buffer ends at `Gen.W6` read at it, and the arguments end as launched.
-/
import proofs.«108469_j11029476016728_1_alg».proof.Proof.Gen.KernelIdeal.Frame

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents read at it, and the seven argument arrays end as launched. -/
theorem run : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Result

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.BlockProduct.lean ====
/-
  One grid point's arithmetic, on the extended reals.

  Both kernels take a block of rows `x0` of the left array and the whole right array `x1`, narrow both to the
  shorter float format (which changes nothing on the extended reals), and multiply them into a zero accumulator.
  So the block they store, read at row `p` and column `q`, is the plain sum over `k` of `x0 (p, k) * x1 (k, q)`:
  row `p` of the block times column `q` of the right array.
-/
import proofs.«108469_j11029476016728_1_alg».proof.Proof.Gen.KernelIdeal.Skeleton
import proofs.«108469_j11029476016728_1_alg».proof.Proof.LibPlainDot
import Idealize.ShloMosaic.Lib.ValueIdx
import Idealize.ShloMosaic.Lib.Pipeline.Value

noncomputable section

open scoped BigOperators

namespace Cert.KernelIdeal.BlockProduct

open Cert.KernelIdeal Cert.KernelIdeal.Gen Idealize.ShloMosaic Idealize.ShloMosaic.ValueIdx Cert.LibPlainDot

/-- The first layer's block, 5000 rows of 32 features against the 32 x 128 weights, at `(p, q)`. -/
theorem firstBlock_apply (x0 : Vec Ideal S5000x32 .f32) (x1 : Vec Ideal S32x128 .f32) (p : Fin 5000) (q : Fin 128) :
    k0_pay1 (F := Ideal) x0 x1 (ix2 p q) = ∑ k : Fin 32, x0 (ix2 p k) * x1 (ix2 k q) := by
  unfold k0_pay1
  refine (matmul_zero_apply (R := 5000) (K := 32) (C := 128) dot_S5000x32_S32x128_S5000x128_1_0_0_1_n_n.wf none _ _ p q).trans ?_
  refine Finset.sum_congr rfl fun k _ => ?_
  rw [truncf_apply, truncf_apply, shapeCast_self]

/-- The second layer's block, 5000 rows of 128 features against the 128 x 128 weights, at `(p, q)`. -/
theorem secondBlock_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  refine (matmul_zero_apply (R := 5000) (K := 128) (C := 128) dot_S5000x128_S128x128_S5000x128_1_0_0_1_n_n.wf none _ _ p q).trans ?_
  refine Finset.sum_congr rfl fun k _ => ?_
  rw [truncf_apply, truncf_apply, shapeCast_self]

end Cert.KernelIdeal.BlockProduct

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«108469_j11029476016728_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.RegionProduct.lean ====
/-
  Each row-blocked product is the whole product.

  A region walks ten grid points. At point `t` it fetches rows `5000 t … 5000 t + 4999` of its left array and the whole of its
  right array, multiplies them (one grid point's arithmetic), and writes the 5000 x 128 result back as row block `t` of its
  result array. Entry `(r, q)` of the result array is therefore written by point `r / 5000` with the sum over `k` of
  `left (r, k) * right (k, q)`, which is what the host's one whole product holds at `(r, q)`. The ten blocks tile the
  50000 rows, so the region's result array ends as the host's product of the two arrays the region found at its operands.
  The statements are over any contents `V` of the buffers at the region's entry.
-/
import proofs.«108469_j11029476016728_1_alg».proof.Proof.Gen.KernelIdeal.Frame
import proofs.«108469_j11029476016728_1_alg».proof.Proof.Gen.ReferenceIdeal
import proofs.«108469_j11029476016728_1_alg».proof.Proof.BlockProduct
import proofs.«108469_j11029476016728_1_alg».proof.Proof.LibHostDot
import Idealize.ShloMosaic.Lib.Pipeline.Value
import Idealize.ShloMosaic.Lib.Tactic

noncomputable section

open scoped BigOperators

namespace Cert.KernelIdeal.RegionProduct

open Cert.KernelIdeal Cert.KernelIdeal.Gen Idealize.ShloMosaic Idealize.ShloMosaic.TcCoe Idealize.ShloMosaic.ValueIdx Idealize.SL.Sem
open Idealize.ShloMosaic.Pipeline (Dat)
open Cert.LibPlainDot Cert.LibHostDot Cert.KernelIdeal.BlockProduct

/-- The host's whole first product, the reference's spelling of it. -/
abbrev firstHost (A : FVec Ideal S50000x32 .f32) (B : FVec Ideal S32x128 .f32) : FVec Ideal S50000x128 .f32 :=
  Host.dotGeneral (F := Ideal) Cert.ReferenceIdeal.dot_S50000x32_S32x128_S50000x128_1_0_0_1_n_n none A B

/-- The host's whole second product, the reference's spelling of it. -/
abbrev secondHost (A : FVec Ideal S50000x128 .f32) (B : FVec Ideal S128x128 .f32) : FVec Ideal S50000x128 .f32 :=
  Host.dotGeneral (F := Ideal) Cert.ReferenceIdeal.dot_S50000x128_S128x128_S50000x128_1_0_0_1_n_n none A B

/-! ## A block of rows times the right array is those rows of the whole product -/

/-- If `x0` is rows `5000 n …` of `A` and `x1` is `B`, the block's product at `y` is the whole product at the entry `i` that
    sits `5000 n` rows further down: both are the sum over `k` of `A (row, k) * B (k, column)`. -/
theorem firstRows (A : FVec Ideal S50000x32 .f32) (B : FVec Ideal S32x128 .f32)
    (x0 : Vec Ideal S5000x32 .f32) (x1 : Vec Ideal S32x128 .f32) (n : Nat)
    (h0 : ∀ (x : S5000x32.Idx) (k : S50000x32.Idx), (k 0).val = 5000 * n + (x 0).val → (k 1).val = (x 1).val → x0 x = A k)
    (h1 : ∀ x : S32x128.Idx, x1 x = B x)
    (y : S5000x128.Idx) (i : S50000x128.Idx) (hi0 : (i 0).val = 5000 * n + (y 0).val) (hi1 : (i 1).val = (y 1).val) :
    k0_pay1 (F := Ideal) x0 x1 y = firstHost A B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * n + p.val := hi0
  obtain rfl : s = q := Fin.ext hi1
  rw [firstBlock_apply]
  refine Eq.trans ?_ (hostDot_apply (R := 50000) (K := 32) (C := 128)
    Cert.ReferenceIdeal.dot_S50000x32_S32x128_S50000x128_1_0_0_1_n_n.wf none A B r s).symm
  refine Finset.sum_congr rfl fun k _ => ?_
  rw [h0 (ix2 p k) (ix2 r k) hr rfl, h1]

theorem secondRows (A : FVec Ideal S50000x128 .f32) (B : FVec Ideal S128x128 .f32)
    (x0 : Vec Ideal S5000x128 .f32) (x1 : Vec Ideal S128x128 .f32) (n : Nat)
    (h0 : ∀ (x : S5000x128.Idx) (k : S50000x128.Idx), (k 0).val = 5000 * n + (x 0).val → (k 1).val = (x 1).val → x0 x = A k)
    (h1 : ∀ x : S128x128.Idx, x1 x = B x)
    (y : S5000x128.Idx) (i : S50000x128.Idx) (hi0 : (i 0).val = 5000 * n + (y 0).val) (hi1 : (i 1).val = (y 1).val) :
    k1_pay1 (F := Ideal) x0 x1 y = secondHost A B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = 5000 * n + p.val := hi0
  obtain rfl : s = q := Fin.ext hi1
  rw [secondBlock_apply]
  refine Eq.trans ?_ (hostDot_apply (R := 50000) (K := 128) (C := 128)
    Cert.ReferenceIdeal.dot_S50000x128_S128x128_S50000x128_1_0_0_1_n_n.wf none A B r s).symm
  refine Finset.sum_congr rfl fun k _ => ?_
  rw [h0 (ix2 p k) (ix2 r k) hr rfl, h1]

/-! ## The first product's region -/

variable (V : (c : Dev nD) → (b : Ref sig .tc) → Buf (Elt Ideal) ((c : Thread nD τ).loc b))

theorem hz : (![0, 0] : Fin 2 → Nat) = fun _ => 0 := funext fun a => by fin_cases a <;> rfl

/-- Where the blocks sit, decided over the ten grid points: point `t` takes the left array's and the result's row block
    `t`, and the whole right array. -/
theorem firstIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `5000 t … 5000 t + 4999` of the left array. -/
theorem firstLeft_apply (c : Dev nD) (t : Fin cfg0.N) (x : S5000x32.Idx) (k : S50000x32.Idx)
    (hk0 : (k 0).val = 5000 * t.val + (x 0).val) (hk1 : (k 1).val = (x 1).val) :
    (iblk0 V c 0 t : Vec Ideal S5000x32 .f32) x = (V c main_v6 : S50000x32.Idx → Elt Ideal .f32) k := by
  obtain ⟨e0, e1, -⟩ := firstIdx t
  unfold iblk0
  rw [View.read_apply]
  show V c main_v6 _ = V c main_v6 _
  congr 1
  funext a
  apply Fin.ext
  match a with
  | ⟨0, _⟩ => show win0_0.index t 0 * 5000 + 1 * (x 0).val = (k 0).val; rw [e0, hk0]; omega
  | ⟨1, _⟩ => show win0_0.index t 1 * 32 + 1 * (x 1).val = (k 1).val; rw [e1, hk1]; omega

/-- The right window's block at any point is the whole right array. -/
theorem firstRight_apply (c : Dev nD) (t : Fin cfg0.N) (x : S32x128.Idx) :
    (iblk0 V c 1 t : Vec Ideal S32x128 .f32) x = (V c main_arg3 : S32x128.Idx → Elt Ideal .f32) x := by
  obtain ⟨-, -, e2, e3, -⟩ := firstIdx t
  unfold iblk0
  rw [View.read_apply]
  show V c main_arg3 _ = V c main_arg3 _
  congr 1
  funext a
  apply Fin.ext
  match a with
  | ⟨0, _⟩ => show win0_1.index t 0 * 32 + 1 * (x 0).val = (x 0).val; rw [e2]; omega
  | ⟨1, _⟩ => show win0_1.index t 1 * 128 + 1 * (x 1).val = (x 1).val; rw [e3]; omega

/-- What point `t` writes back is block `t` of the whole product of the arrays the region finds. -/
theorem firstFlushed (c : Dev nD) (t : Fin cfg0.N) :
    (dat0 V c).flushed 2 t = ((cfg0.win 2).blk t).view.read (Elt Ideal) (firstHost (V c main_v6) (V c main_arg3)) := by
  show (cfg0.win 2).cut (grid0.coords t) ((dat0 V c).after 2 t) = _
  rw [after0_2]
  unfold out0_2
  rw [View.canon_unit_zero hz]
  simp only [View.ld_unit_zero (S := S5000x32) hz, View.ld_unit_zero (S := S32x128) hz]
  funext j
  obtain ⟨-, -, -, -, e4, e5⟩ := firstIdx t
  refine firstRows (V c main_v6) (V c main_arg3) (iblk0 V c 0 t) (iblk0 V c 1 t) t.val
    (fun x k hk0 hk1 => firstLeft_apply V c t x k hk0 hk1) (fun x => firstRight_apply V c t x) j
    (((cfg0.win 2).blk t).view.emb j) ?_ ?_
  · show win0_2.index t 0 * 5000 + 1 * (j 0).val = 5000 * t.val + (j 0).val
    rw [e4]; omega
  · show win0_2.index t 1 * 128 + 1 * (j 1).val = (j 1).val
    rw [e5]; omega

/-- An entry of the result array is in point `t`'s block when, on each axis, its coordinate is within the block's range. -/
theorem firstMem (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

/-- Every entry of the result array is written back by some point: row `r` lies in the block of point `r / 5000`. -/
theorem firstCover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := firstIdx ⟨(i 0).val / 5000, ht⟩
  refine ⟨⟨(i 0).val / 5000, ht⟩, flush0_2 _, ?_⟩
  rw [firstMem]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ 1 * 128 ≤ (i 1).val ∧ (i 1).val < win0_2.index ⟨(i 0).val / 5000, ht⟩ 1 * 128 + 128
    rw [e5]
    omega

/-- THE FIRST REGION'S RESULT ARRAY: the whole product of the two arrays the region finds at its operands. -/
theorem firstProduct (c : Dev nD) :
    (dat0 V c).arrAt 2 cfg0.N = firstHost (V c main_v6) (V c main_arg3) :=
  (dat0 V c).arrAt_eq_of_cover 2 (firstHost (V c main_v6) (V c main_arg3)) (fun t _ => firstFlushed V c t) firstCover

/-! ## The second product's region -/

/-- The second region's blocks sit the same way: point `t` takes the left array's and the result's row block `t`, and the
    whole right array. -/
theorem secondIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `5000 t … 5000 t + 4999` of the left array. -/
theorem secondLeft_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v51 : S50000x128.Idx → Elt Ideal .f32) k := by
  obtain ⟨e0, e1, -⟩ := secondIdx t
  unfold iblk1
  rw [View.read_apply]
  show V c main_v51 _ = V c main_v51 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The right window's block at any point is the whole right array. -/
theorem secondRight_apply (c : Dev nD) (t : Fin cfg1.N) (x : S128x128.Idx) :
    (iblk1 V c 1 t : Vec Ideal S128x128 .f32) x = (V c main_arg5 : S128x128.Idx → Elt Ideal .f32) x := by
  obtain ⟨-, -, e2, e3, -⟩ := secondIdx t
  unfold iblk1
  rw [View.read_apply]
  show V c main_arg5 _ = V c main_arg5 _
  congr 1
  funext a
  apply Fin.ext
  match a with
  | ⟨0, _⟩ => show win1_1.index t 0 * 128 + 1 * (x 0).val = (x 0).val; rw [e2]; omega
  | ⟨1, _⟩ => show win1_1.index t 1 * 128 + 1 * (x 1).val = (x 1).val; rw [e3]; omega

/-- What point `t` writes back is block `t` of the whole product of the arrays the region finds. -/
theorem secondFlushed (c : Dev nD) (t : Fin cfg1.N) :
    (dat1 V c).flushed 2 t = ((cfg1.win 2).blk t).view.read (Elt Ideal) (secondHost (V c main_v51) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  funext j
  obtain ⟨-, -, -, -, e4, e5⟩ := secondIdx t
  refine secondRows (V c main_v51) (V c main_arg5) (iblk1 V c 0 t) (iblk1 V c 1 t) t.val
    (fun x k hk0 hk1 => secondLeft_apply V c t x k hk0 hk1) (fun x => secondRight_apply V c t x) j
    (((cfg1.win 2).blk t).view.emb j) ?_ ?_
  · show win1_2.index t 0 * 5000 + 1 * (j 0).val = 5000 * t.val + (j 0).val
    rw [e4]; omega
  · show win1_2.index t 1 * 128 + 1 * (j 1).val = (j 1).val
    rw [e5]; omega

/-- An entry of the result array is in point `t`'s block when, on each axis, its coordinate is within the block's range. -/
theorem secondMem (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v52).slice (win1_2.rect t)).set ↔ _
  rw [View.set_slice_whole, Rect.mem_set_unit]
  exact Iff.rfl

/-- Every entry of the result array is written back by some point: row `r` lies in the block of point `r / 5000`. -/
theorem secondCover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := secondIdx ⟨(i 0).val / 5000, ht⟩
  refine ⟨⟨(i 0).val / 5000, ht⟩, flush1_2 _, ?_⟩
  rw [secondMem]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ 1 * 128 ≤ (i 1).val ∧ (i 1).val < win1_2.index ⟨(i 0).val / 5000, ht⟩ 1 * 128 + 128
    rw [e5]
    omega

/-- THE SECOND REGION'S RESULT ARRAY: the whole product of the two arrays the region finds at its operands. -/
theorem secondProduct (c : Dev nD) :
    (dat1 V c).arrAt 2 cfg1.N = secondHost (V c main_v51) (V c main_arg5) :=
  (dat1 V c).arrAt_eq_of_cover 2 (secondHost (V c main_v51) (V c main_arg5)) (fun t _ => secondFlushed V c t) secondCover

end Cert.KernelIdeal.RegionProduct

end
-- ==== Proof.Layers.lean ====
/-
  The kernel program's result, buffer by buffer, as the reference's stages of the launch arguments.

  The two programs are the same two-layer graph convolution. Both look up the node features, build the edge list with its
  self-loops and the symmetric edge weights `rsqrt(deg src) * rsqrt(deg dst)`, and then twice: multiply the node features by
  a weight matrix, gather the product's rows along the edges' sources, scale by the edge weights, add them up at the edges'
  targets, add the bias (a rectifier sits between the two layers). The host operations around the products are the same,
  operation by operation, in both programs; the programs differ only in the two products, which the kernel program
  computes in row blocks and the reference as one host product. A row-blocked product IS the whole product, so walking
  the kernel program's six segments, every buffer it writes holds the reference's stage of the same launch arguments:
  the features, the edge ends and the edge weights after the first stretch; the first product; the first layer's
  output; its rectified form; the second product; the result.
-/
import proofs.«108469_j11029476016728_1_alg».proof.Proof.Gen.KernelIdeal.Frame
import proofs.«108469_j11029476016728_1_alg».proof.Proof.Gen.ReferenceIdeal.Read
import proofs.«108469_j11029476016728_1_alg».proof.Proof.RegionProduct
import Idealize.ShloMosaic.Lib.StableHlo.Run

noncomputable section

namespace Cert.KernelIdeal.Layers

open Cert.KernelIdeal Cert.KernelIdeal.Gen Idealize.ShloMosaic Idealize.ShloMosaic.TcCoe Idealize.SL.Sem Idealize.ShloMosaic.StableHlo
open Cert.ReferenceIdeal.Read Cert.KernelIdeal.RegionProduct

variable (m : (ℓ : Loc nD τ sig) → Buf (Elt Ideal) ℓ) (ρ : Dev nD → PrngReg) (c : Dev nD)

/-- No operation of the stretch writes the buffer, so it keeps its contents. -/
macro "unwritten" : tactic => `(tactic| (
  refine StableHlo.after_of_forall_not_mem _ _ (List.forall_iff_forall_mem.mp ?_)
  simp only [hostOps0, hostOps1, hostOps1_1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## After the first stretch: the features, the edges and their weights -/

/-- The node features the first product reads: the embedding rows looked up at the node ids. -/
theorem feat_entry : W1 m ρ c (Proc.devRef .tc main_v6) = val_main_v6 (F := Ideal) (m ((c : Thread nD τ).loc main_arg0)) (m ((c : Thread nD τ).loc main_arg2)) := by
  show StableHlo.after hostOps0 (W0 m ρ c) (Proc.devRef .tc main_v6) = _
  after_results_simp <;> rfl

/-- The edges' sources, self-loops appended. -/
theorem src_entry : W1 m ρ c (Proc.devRef .tc main_v10) = val_main_v10 (F := Ideal) (m ((c : Thread nD τ).loc main_arg1)) := by
  show StableHlo.after hostOps0 (W0 m ρ c) (Proc.devRef .tc main_v10) = _
  after_results_simp <;> rfl

/-- The edges' targets, self-loops appended. -/
theorem dst_entry : W1 m ρ c (Proc.devRef .tc main_v13) = val_main_v13 (F := Ideal) (m ((c : Thread nD τ).loc main_arg1)) := by
  show StableHlo.after hostOps0 (W0 m ρ c) (Proc.devRef .tc main_v13) = _
  after_results_simp <;> rfl

/-- The edge weights: the inverse square roots of the two ends' degrees, multiplied. -/
theorem weight_entry : W1 m ρ c (Proc.devRef .tc main_v33) = val_main_v33 (F := Ideal) (m ((c : Thread nD τ).loc main_arg1)) := by
  show StableHlo.after hostOps0 (W0 m ρ c) (Proc.devRef .tc main_v33) = _
  after_results_simp <;> rfl

/-- The first stretch writes no argument. -/
theorem arg3_entry : W1 m ρ c (Proc.devRef .tc main_arg3) = (m ((c : Thread nD τ).loc main_arg3)) := by
  show StableHlo.after hostOps0 (W0 m ρ c) (Proc.devRef .tc main_arg3) = _
  unwritten
theorem arg4_entry : W1 m ρ c (Proc.devRef .tc main_arg4) = (m ((c : Thread nD τ).loc main_arg4)) := by
  show StableHlo.after hostOps0 (W0 m ρ c) (Proc.devRef .tc main_arg4) = _
  unwritten
theorem arg5_entry : W1 m ρ c (Proc.devRef .tc main_arg5) = (m ((c : Thread nD τ).loc main_arg5)) := by
  show StableHlo.after hostOps0 (W0 m ρ c) (Proc.devRef .tc main_arg5) = _
  unwritten
theorem arg6_entry : W1 m ρ c (Proc.devRef .tc main_arg6) = (m ((c : Thread nD τ).loc main_arg6)) := by
  show StableHlo.after hostOps0 (W0 m ρ c) (Proc.devRef .tc main_arg6) = _
  unwritten

/-! ## The first product, and what the first region leaves alone -/

/-- The first region's result array is the reference's first product of the launch arguments. -/
theorem product1 : W2 m ρ c (Proc.devRef .tc main_v34) = val_main_v34 (F := Ideal) (m ((c : Thread nD τ).loc main_arg0)) (m ((c : Thread nD τ).loc main_arg2)) (m ((c : Thread nD τ).loc main_arg3)) := by
  refine (W2_arr m ρ c 2).trans ((firstProduct (V1 m ρ) c).trans ?_)
  show firstHost (W1 m ρ c (Proc.devRef .tc main_v6)) (W1 m ρ c (Proc.devRef .tc main_arg3)) = _
  rw [feat_entry, arg3_entry]
  rfl

theorem src_at2 : W2 m ρ c (Proc.devRef .tc main_v10) = val_main_v10 (F := Ideal) (m ((c : Thread nD τ).loc main_arg1)) :=
  (W2_of_ne m ρ c main_v10 (by decide)).trans (src_entry m ρ c)
theorem dst_at2 : W2 m ρ c (Proc.devRef .tc main_v13) = val_main_v13 (F := Ideal) (m ((c : Thread nD τ).loc main_arg1)) :=
  (W2_of_ne m ρ c main_v13 (by decide)).trans (dst_entry m ρ c)
theorem weight_at2 : W2 m ρ c (Proc.devRef .tc main_v33) = val_main_v33 (F := Ideal) (m ((c : Thread nD τ).loc main_arg1)) :=
  (W2_of_ne m ρ c main_v33 (by decide)).trans (weight_entry m ρ c)
theorem arg4_at2 : W2 m ρ c (Proc.devRef .tc main_arg4) = (m ((c : Thread nD τ).loc main_arg4)) :=
  (W2_of_ne m ρ c main_arg4 (by decide)).trans (arg4_entry m ρ c)
theorem arg5_at2 : W2 m ρ c (Proc.devRef .tc main_arg5) = (m ((c : Thread nD τ).loc main_arg5)) :=
  (W2_of_ne m ρ c main_arg5 (by decide)).trans (arg5_entry m ρ c)
theorem arg6_at2 : W2 m ρ c (Proc.devRef .tc main_arg6) = (m ((c : Thread nD τ).loc main_arg6)) :=
  (W2_of_ne m ρ c main_arg6 (by decide)).trans (arg6_entry m ρ c)

/-! ## The first layer: gather along the sources, scale, add up at the targets, add the bias; then the rectifier -/

/-- The first layer's output. -/
theorem layer1 : W3 m ρ c (Proc.devRef .tc main_v50)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v50) = _
  after_results_simp
  rw [product1, src_at2, dst_at2, weight_at2, arg4_at2]
  rfl

/-- The rectifier's stretch from any contents: the larger of the first layer's output and zero, entry by entry. -/
theorem rectifier_stretch (W : Valuation τ sig (Elt Ideal)) :
    StableHlo.after hostOps1_1 W (Proc.devRef .tc main_v51)
      = maximumf (F := Ideal) (s := S50000x128) (φ := .f32) (W (Proc.devRef .tc main_v50)) (val_main_call0_v0 (F := Ideal)) := by
  after_results_simp <;> rfl

/-- The rectified first layer, which the second product reads. -/
theorem rectified1 : W4 m ρ c (Proc.devRef .tc main_v51)
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1_1 (W3 m ρ c) (Proc.devRef .tc main_v51) = _
  rw [rectifier_stretch, layer1]
  rfl

/-- The two host stretches between the regions write none of the buffers the second layer still reads. -/
theorem src_at4 : W4 m ρ c (Proc.devRef .tc main_v10) = val_main_v10 (F := Ideal) (m ((c : Thread nD τ).loc main_arg1)) :=
  calc W4 m ρ c (Proc.devRef .tc main_v10)
    _ = W3 m ρ c (Proc.devRef .tc main_v10) := by
        show StableHlo.after hostOps1_1 (W3 m ρ c) (Proc.devRef .tc main_v10) = _; unwritten
    _ = W2 m ρ c (Proc.devRef .tc main_v10) := by
        show StableHlo.after hostOps1 (W2 m ρ c) (Proc.devRef .tc main_v10) = _; unwritten
    _ = _ := src_at2 m ρ c
theorem dst_at4 : W4 m ρ c (Proc.devRef .tc main_v13) = val_main_v13 (F := Ideal) (m ((c : Thread nD τ).loc main_arg1)) :=
  calc W4 m ρ c (Proc.devRef .tc main_v13)
    _ = W3 m ρ c (Proc.devRef .tc main_v13) := by
        show StableHlo.after hostOps1_1 (W3 m ρ c) (Proc.devRef .tc main_v13) = _; unwritten
    _ = W2 m ρ c (Proc.devRef .tc main_v13) := by
        show StableHlo.after hostOps1 (W2 m ρ c) (Proc.devRef .tc main_v13) = _; unwritten
    _ = _ := dst_at2 m ρ c
theorem weight_at4 : W4 m ρ c (Proc.devRef .tc main_v33) = val_main_v33 (F := Ideal) (m ((c : Thread nD τ).loc main_arg1)) :=
  calc W4 m ρ c (Proc.devRef .tc main_v33)
    _ = W3 m ρ c (Proc.devRef .tc main_v33) := by
        show StableHlo.after hostOps1_1 (W3 m ρ c) (Proc.devRef .tc main_v33) = _; unwritten
    _ = W2 m ρ c (Proc.devRef .tc main_v33) := by
        show StableHlo.after hostOps1 (W2 m ρ c) (Proc.devRef .tc main_v33) = _; unwritten
    _ = _ := weight_at2 m ρ c
theorem arg5_at4 : W4 m ρ c (Proc.devRef .tc main_arg5) = (m ((c : Thread nD τ).loc main_arg5)) :=
  calc W4 m ρ c (Proc.devRef .tc main_arg5)
    _ = W3 m ρ c (Proc.devRef .tc main_arg5) := by
        show StableHlo.after hostOps1_1 (W3 m ρ c) (Proc.devRef .tc main_arg5) = _; unwritten
    _ = W2 m ρ c (Proc.devRef .tc main_arg5) := by
        show StableHlo.after hostOps1 (W2 m ρ c) (Proc.devRef .tc main_arg5) = _; unwritten
    _ = _ := arg5_at2 m ρ c
theorem arg6_at4 : W4 m ρ c (Proc.devRef .tc main_arg6) = (m ((c : Thread nD τ).loc main_arg6)) :=
  calc W4 m ρ c (Proc.devRef .tc main_arg6)
    _ = W3 m ρ c (Proc.devRef .tc main_arg6) := by
        show StableHlo.after hostOps1_1 (W3 m ρ c) (Proc.devRef .tc main_arg6) = _; unwritten
    _ = W2 m ρ c (Proc.devRef .tc main_arg6) := by
        show StableHlo.after hostOps1 (W2 m ρ c) (Proc.devRef .tc main_arg6) = _; unwritten
    _ = _ := arg6_at2 m ρ c

/-! ## The second product, and what the second region leaves alone -/

/-- The second region's result array is the reference's second product of the launch arguments. -/
theorem product2 : W5 m ρ c (Proc.devRef .tc main_v52)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W5_arr m ρ c 2).trans ((secondProduct (V4 m ρ) c).trans ?_)
  show secondHost (W4 m ρ c (Proc.devRef .tc main_v51)) (W4 m ρ c (Proc.devRef .tc main_arg5)) = _
  rw [rectified1, arg5_at4]
  rfl

theorem src_at5 : W5 m ρ c (Proc.devRef .tc main_v10) = val_main_v10 (F := Ideal) (m ((c : Thread nD τ).loc main_arg1)) :=
  (W5_of_ne m ρ c main_v10 (by decide)).trans (src_at4 m ρ c)
theorem dst_at5 : W5 m ρ c (Proc.devRef .tc main_v13) = val_main_v13 (F := Ideal) (m ((c : Thread nD τ).loc main_arg1)) :=
  (W5_of_ne m ρ c main_v13 (by decide)).trans (dst_at4 m ρ c)
theorem weight_at5 : W5 m ρ c (Proc.devRef .tc main_v33) = val_main_v33 (F := Ideal) (m ((c : Thread nD τ).loc main_arg1)) :=
  (W5_of_ne m ρ c main_v33 (by decide)).trans (weight_at4 m ρ c)
theorem arg6_at5 : W5 m ρ c (Proc.devRef .tc main_arg6) = (m ((c : Thread nD τ).loc main_arg6)) :=
  (W5_of_ne m ρ c main_arg6 (by decide)).trans (arg6_at4 m ρ c)

/-! ## The second layer: the result -/

/-- THE RESULT: the last boundary's contents at the result buffer are the reference's last stage of the launch arguments. -/
theorem result : W6 m ρ c (Proc.devRef .tc main_v68)
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W5 m ρ c) (Proc.devRef .tc main_v68) = _
  after_results_simp
  rw [product2, src_at5, dst_at5, weight_at5, arg6_at5]
  rfl

end Cert.KernelIdeal.Layers

end
-- ==== Proof.lean ====
/-
  A two-layer graph convolution whose two dense products run as row-blocked kernels, against the same network with the
  products done whole on the host.

  Both programs look up the node features, append the self-loops to the edge list, weigh every edge by the inverse square
  roots of its two ends' degrees, and apply two layers `features * weights`, gathered along the edges' sources, scaled by
  the edge weights, added up at the edges' targets, plus a bias, with a rectifier in between. Their host operations are
  the same, one by one; they differ only in the two products. The kernel program computes each product in ten blocks
  of 5000 rows, narrowing the operands to the shorter float format on the way in; on the extended reals a change of
  format changes nothing and a product into a zero accumulator is the plain sum over the contracted axis, so block `t`
  holds rows `5000 t …` of the whole product, and the ten blocks tile the result array. No law of arithmetic beyond
  reading both products as the same sum is used: no sum is reordered, no factor moved, and the precondition on the inputs
  is never opened.

  The three frames: the two kernel programs' are the generated ones; the reference's is its generated run with the
  result dropped. `preserves` is `True`: the idealization rewrote nothing. `algebraic`: the kernel program's run names its
  result buffer at the last boundary's contents (Proof/RunResult.lean), which are the reference's last stage of the launch
  arguments (Proof/Layers.lean, over Proof/RegionProduct.lean and Proof/BlockProduct.lean); the reference's generated run
  ends at the same stage of its own arguments, which agree.
-/
import proofs.«108469_j11029476016728_1_alg».proof.Defs
import proofs.«108469_j11029476016728_1_alg».proof.Proof.Gen.Kernel
import proofs.«108469_j11029476016728_1_alg».proof.Proof.Gen.Kernel.Skeleton
import proofs.«108469_j11029476016728_1_alg».proof.Proof.Gen.Kernel.Launch
import proofs.«108469_j11029476016728_1_alg».proof.Proof.Gen.Kernel.Points
import proofs.«108469_j11029476016728_1_alg».proof.Proof.Gen.Kernel.Frame
import proofs.«108469_j11029476016728_1_alg».proof.Proof.Gen.KernelIdeal
import proofs.«108469_j11029476016728_1_alg».proof.Proof.Gen.KernelIdeal.Skeleton
import proofs.«108469_j11029476016728_1_alg».proof.Proof.Gen.KernelIdeal.Launch
import proofs.«108469_j11029476016728_1_alg».proof.Proof.Gen.KernelIdeal.Points
import proofs.«108469_j11029476016728_1_alg».proof.Proof.Gen.KernelIdeal.Frame
import proofs.«108469_j11029476016728_1_alg».proof.Proof.Gen.ReferenceIdeal
import proofs.«108469_j11029476016728_1_alg».proof.Proof.Gen.ReferenceIdeal.Run
import proofs.«108469_j11029476016728_1_alg».proof.Proof.Gen.ReferenceIdeal.Read
import proofs.«108469_j11029476016728_1_alg».proof.Proof.Gen.Pre_finite_inputs
import proofs.«108469_j11029476016728_1_alg».proof.Proof.RunResult
import proofs.«108469_j11029476016728_1_alg».proof.Proof.Layers
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals both programs end with the same result array: the reference's last stage of the launch
    arguments, which the kernel program reaches through its two row-blocked products. -/
theorem algebraic : Cert.algebraic_KernelIdeal_ReferenceIdeal := by
  intro m ρ m' ρ' _ hagree
  refine ⟨fun c => Cert.KernelIdeal.Gen.W6 m ρ c (Proc.devRef .tc Cert.KernelIdeal.main_v68),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v68 m' c = Cert.KernelIdeal.Gen.W6 m ρ c (Proc.devRef .tc Cert.KernelIdeal.main_v68)
  rw [Cert.ReferenceIdeal.Read.val_main_v68_eq, (hagree c).1, (hagree c).2.1, (hagree c).2.2.1, (hagree c).2.2.2.1,
    (hagree c).2.2.2.2.1, (hagree c).2.2.2.2.2.1, (hagree c).2.2.2.2.2.2]
  exact (Cert.KernelIdeal.Layers.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
